-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x2048 .f32) (main_arg5 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x4096x512 .f32) (main_arg1 : FVec F S8 .f32) (main_arg2 : FVec F S2048x8 .f32) (main_arg3 : FVec F S2048 .f32) (main_arg4 : FVec F S512x2048 .f32) (main_arg5 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S1x8 : Shape := ⟨2, ![1, 8]⟩
abbrev S2048x512 : Shape := ⟨2, ![2048, 512]⟩
abbrev S32768x512 : Shape := ⟨2, ![32768, 512]⟩
abbrev S2048x128 : Shape := ⟨2, ![2048, 128]⟩
abbrev S2048x2048 : Shape := ⟨2, ![2048, 2048]⟩
abbrev S1x2048 : Shape := ⟨2, ![1, 2048]⟩
abbrev S1x512 : Shape := ⟨2, ![1, 512]⟩

abbrev nBuf : Space → Nat
  | .hbm => 15
  | .vmem => 8
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8, .f32⟩
  | .hbm, ⟨7, _⟩ => ⟨S1x8, .f32⟩
  | .hbm, ⟨8, _⟩ => ⟨S2048x8, .f32⟩
  | .hbm, ⟨9, _⟩ => ⟨S2048x8, .f32⟩
  | .hbm, ⟨10, _⟩ => ⟨S2048x512, .f32⟩
  | .hbm, ⟨11, _⟩ => ⟨S2048x512, .bf16⟩
  | .hbm, ⟨12, _⟩ => ⟨S32768x512, .f32⟩
  | .hbm, ⟨13, _⟩ => ⟨S32768x512, .f32⟩
  | .hbm, ⟨14, _⟩ => ⟨S8x4096x512, .f32⟩
  | .local _ .vmem, ⟨0, _⟩ => ⟨S2048x128, .f32⟩
  | .local _ .vmem, ⟨1, _⟩ => ⟨S2048x128, .f32⟩
  | .local _ .vmem, ⟨2, _⟩ => ⟨S2048x8, .f32⟩
  | .local _ .vmem, ⟨3, _⟩ => ⟨S2048, .f32⟩
  | .local _ .vmem, ⟨4, _⟩ => ⟨S2048x512, .bf16⟩
  | .local _ .vmem, ⟨5, _⟩ => ⟨S512, .f32⟩
  | .local _ .vmem, ⟨6, _⟩ => ⟨S2048x512, .f32⟩
  | .local _ .vmem, ⟨7, _⟩ => ⟨S2048x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  transposes_S512x2048_S2048x512_1_0 : S512x2048.Transposes [1, 0] S2048x512
  bitsLt_bf16_f32 : FTy.bits .bf16 < FTy.bits .f32
  shapeCasts_S8x4096x512_S32768x512 : S8x4096x512.ShapeCasts S32768x512
  inb_S2048x128_S2048x8_0_0 : ∀ a, (![0, 0] : Fin 2 → Nat) a + S2048x8.size a ≤ S2048x128.size a
  h_S2048x8 : 0 < S2048x8.numel
  shapeCasts_S2048x8_S2048x8 : S2048x8.ShapeCasts S2048x8
  inb_S2048x8_S2048x8_0_0 : ∀ a, (![0, 0] : Fin 2 → Nat) a + S2048x8.size a ≤ S2048x8.size a
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S2048x2048 : S1x2048.Broadcasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S32768x512_S8x4096x512 : S32768x512.ShapeCasts S8x4096x512
  dot_S2048x8_S2048x8_S2048x2048_1_1_0_0_n_n_wf : DotDims.WF S2048x8 S2048x8 S2048x2048 [1] [1] [0] [0] [] []
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S32768x512.size a
  hwx0_0 : ∀ i : grid0.Coords, EltTy.bits .f32 = 32 ∨ (Rect.block (s := S32768x512) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S2048x8.size a
  hwx0_1 : ∀ i : grid0.Coords, EltTy.bits .f32 = 32 ∨ (Rect.block (s := S2048x8) S2048x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S32768x512.size a
  hwx0_5 : ∀ i : grid0.Coords, EltTy.bits .f32 = 32 ∨ (Rect.block (s := S32768x512) S2048x512.size (cc0_transform_5 i) (hinb0_5 i)).WholeWords (EltTy.packing .f32)

variable [Facts₀]

def dot_S2048x8_S2048x8_S2048x2048_1_1_0_0_n_n : DotDims S2048x8 S2048x8 S2048x2048 where
  lhsContracting := [1]
  rhsContracting := [1]
  lhsNonContracting := [0]
  rhsNonContracting := [0]
  lhsBatch := []
  rhsBatch := []
  wf := dot_S2048x8_S2048x8_S2048x2048_1_1_0_0_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_v6) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S8x4096x8 : Shape := ⟨3, ![8, 4096, 8]⟩
abbrev S1x1x8 : Shape := ⟨3, ![1, 1, 8]⟩
abbrev S8x4096x2048 : Shape := ⟨3, ![8, 4096, 2048]⟩
abbrev S1x1x2048 : Shape := ⟨3, ![1, 1, 2048]⟩
abbrev S_ : Shape := ⟨0, ![]⟩
abbrev S1x1x512 : Shape := ⟨3, ![1, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8x4096x8, .f32⟩
  | .hbm, ⟨7, _⟩ => ⟨S8x4096x8, .f32⟩
  | .hbm, ⟨8, _⟩ => ⟨S8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S8x4096x2048, .f32⟩
  | .hbm, ⟨13, _⟩ => ⟨S1x1x2048, .f32⟩
  | .hbm, ⟨14, _⟩ => ⟨S8x4096x2048, .f32⟩
  | .hbm, ⟨15, _⟩ => ⟨S8x4096x2048, .f32⟩
  | .hbm, ⟨16, _⟩ => ⟨S_, .f32⟩
  | .hbm, ⟨17, _⟩ => ⟨S8x4096x2048, .f32⟩
  | .hbm, ⟨18, _⟩ => ⟨S8x4096x2048, .f32⟩
  | .hbm, ⟨19, _⟩ => ⟨S8x4096x512, .f32⟩
  | .hbm, ⟨20, _⟩ => ⟨S1x1x512, .f32⟩
  | .hbm, ⟨21, _⟩ => ⟨S8x4096x512, .f32⟩
  | .hbm, ⟨22, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x4096x512_S8x4096x8_0_0_0 : S8x4096x512.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  dot_S8x4096x8_S2048x8_S8x4096x2048_2_1_01_0_n_n_wf : DotDims.WF S8x4096x8 S2048x8 S8x4096x2048 [2] [1] [0, 1] [0] [] []
  dot_S8x4096x2048_S512x2048_S8x4096x512_2_1_01_0_n_n_wf : DotDims.WF S8x4096x2048 S512x2048 S8x4096x512 [2] [1] [0, 1] [0] [] []

variable [Facts₀]

def dot_S8x4096x8_S2048x8_S8x4096x2048_2_1_01_0_n_n : DotDims S8x4096x8 S2048x8 S8x4096x2048 where
  lhsContracting := [2]
  rhsContracting := [1]
  lhsNonContracting := [0, 1]
  rhsNonContracting := [0]
  lhsBatch := []
  rhsBatch := []
  wf := dot_S8x4096x8_S2048x8_S8x4096x2048_2_1_01_0_n_n_wf
def dot_S8x4096x2048_S512x2048_S8x4096x512_2_1_01_0_n_n : DotDims S8x4096x2048 S512x2048 S8x4096x512 where
  lhsContracting := [2]
  rhsContracting := [1]
  lhsNonContracting := [0, 1]
  rhsNonContracting := [0]
  lhsBatch := []
  rhsBatch := []
  wf := dot_S8x4096x2048_S512x2048_S8x4096x512_2_1_01_0_n_n_wf

class Facts : Prop extends Facts₀ where

variable [Facts]
-- ==== Proof.Spec.lean ====
/-
  The function both programs compute, over the extended reals.

  A token is a pair (b, s); its eight features are the first eight channels of x at (b, s).  Feature q is
  cos (x b s q) * cos (θ q).  Hidden unit f of the token is
      max (Σ_q feature q * W1 f q + b1 f) 0
  and output channel e is
      Σ_f hidden f * W2 e f + b2 e.
  One program multiplies cos θ into the feature, the other into the weight: the two hidden units agree because
  multiplication of extended reals is commutative and associative (no distributivity, hence no finiteness, is used).
-/
import Idealize.ShloMosaic.PureOps.Ideal
import Idealize.ShloMosaic.PureOps.Ideal.Laws
import Idealize.ShloMosaic.Lib.ValueIdx

noncomputable section

namespace Cert.Ffn

open Idealize.ShloMosaic Idealize.ShloMosaic.ValueIdx

/-- Channel q < 8 as a channel of the 512-wide input. -/
abbrev chan (q : Fin 8) : Fin 512 := ⟨q.val, by have := q.isLt; omega⟩

/-- The zero the rectifier compares with, as the word both programs spell. -/
abbrev zero : EReal := Ideal.ofBits .f32 0x00000000#32

/-- Hidden unit f of token (b, s), cos θ multiplied into the FEATURE. -/
def hiddenF (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (b : Fin 8) (s : Fin 4096) (f : Fin 2048) : EReal :=
  max ((∑ q : Fin 8, (Ideal.cos (x (ix3 b s (chan q))) * Ideal.cos (θ (ix1 q))) * W1 (ix2 f q)) + b1 (ix1 f)) zero

/-- Hidden unit f of token (b, s), cos θ multiplied into the WEIGHT. -/
def hiddenW (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (b : Fin 8) (s : Fin 4096) (f : Fin 2048) : EReal :=
  max ((∑ q : Fin 8, Ideal.cos (x (ix3 b s (chan q))) * (W1 (ix2 f q) * Ideal.cos (θ (ix1 q)))) + b1 (ix1 f)) zero

/-- a * (w * t) = (a * t) * w in any commutative monoid: the one law that joins the two programs. -/
theorem mul_swap_inner (a w t : EReal) : a * (w * t) = (a * t) * w := by
  rw [← mul_assoc, mul_right_comm]

theorem hiddenW_eq_hiddenF (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (b : Fin 8) (s : Fin 4096) (f : Fin 2048) : hiddenW x θ W1 b1 b s f = hiddenF x θ W1 b1 b s f := by
  unfold hiddenW hiddenF
  congr 2
  exact Finset.sum_congr rfl fun q _ => mul_swap_inner _ _ _

/-- The result: output channel e of token (b, s). -/
def out (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (W2 : (⟨2, ![512, 2048]⟩ : Shape).Idx → EReal) (b2 : (⟨1, ![512]⟩ : Shape).Idx → EReal) :
    (⟨3, ![8, 4096, 512]⟩ : Shape).Idx → EReal := fun i =>
  (∑ f : Fin 2048, hiddenF x θ W1 b1 (i 0) (i 1) f * W2 (ix2 (i 2) f)) + b2 (ix1 (i 2))

/-- Token (b, s) as a row of the 32768-row matrix the tokens are flattened into. -/
abbrev tok (b : Fin 8) (s : Fin 4096) : Fin 32768 := ⟨b.val * 4096 + s.val, by have := b.isLt; have := s.isLt; omega⟩

/-- The same result over the flattened tokens, from the arrays one program prepares: X the tokens as rows, W1c the
    first weight with cos θ multiplied in, W2t the second weight transposed. Row r, column e. -/
def rows (X : (⟨2, ![32768, 512]⟩ : Shape).Idx → EReal) (W1c : (⟨2, ![2048, 8]⟩ : Shape).Idx → EReal)
    (B1 : (⟨1, ![2048]⟩ : Shape).Idx → EReal) (W2t : (⟨2, ![2048, 512]⟩ : Shape).Idx → EReal)
    (B2 : (⟨1, ![512]⟩ : Shape).Idx → EReal) : (⟨2, ![32768, 512]⟩ : Shape).Idx → EReal := fun i =>
  (∑ f : Fin 2048, max ((∑ q : Fin 8, Ideal.cos (X (ix2 (i 0) (chan q))) * W1c (ix2 f q)) + B1 (ix1 f)) zero * W2t (ix2 f (i 1)))
    + B2 (ix1 (i 1))

/-- Row `tok b s` of the flattened result is token (b, s) of `out`, when X is x with its tokens flattened, W1c is W1
    with cos θ multiplied in, and W2t is W2 transposed. -/
theorem rows_eq_out (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (W2 : (⟨2, ![512, 2048]⟩ : Shape).Idx → EReal) (b2 : (⟨1, ![512]⟩ : Shape).Idx → EReal)
    (X : (⟨2, ![32768, 512]⟩ : Shape).Idx → EReal) (W1c : (⟨2, ![2048, 8]⟩ : Shape).Idx → EReal)
    (W2t : (⟨2, ![2048, 512]⟩ : Shape).Idx → EReal)
    (hX : ∀ (b : Fin 8) (s : Fin 4096) (ch : Fin 512), X (ix2 (tok b s) ch) = x (ix3 b s ch))
    (hW1 : ∀ (f : Fin 2048) (q : Fin 8), W1c (ix2 f q) = W1 (ix2 f q) * Ideal.cos (θ (ix1 q)))
    (hW2 : ∀ (f : Fin 2048) (e : Fin 512), W2t (ix2 f e) = W2 (ix2 e f))
    (b : Fin 8) (s : Fin 4096) (e : Fin 512) :
    rows X W1c b1 W2t b2 (ix2 (tok b s) e) = out x θ W1 b1 W2 b2 (ix3 b s e) := by
  unfold rows out
  congr 1
  refine Finset.sum_congr rfl fun f _ => ?_
  rw [← hiddenW_eq_hiddenF, hW2]
  unfold hiddenW
  congr 3
  refine Finset.sum_congr rfl fun q _ => ?_
  rw [hW1]
  exact congrArg (fun z => Ideal.cos z * _) (hX b s (chan q))

end Cert.Ffn

end
-- ==== Proof.RefValue.lean ====
/-
  The reference, read one operation at a time, is the function `Cert.Ffn.out` of its arguments: a slice of the first
  eight channels, the cosines, the product with cos θ broadcast along the tokens, the contraction with W1 over the eight
  features, the bias, the rectifier, the contraction with W2 over the 2048 hidden units, the bias.
-/
import proofs.«120687_j65481071395240_2_alg».proof.Proof.Gen.ReferenceIdeal.Read
import proofs.«120687_j65481071395240_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Ffn

/-- The rectified stage at (b, s, f) is hidden unit f of token (b, s). -/
theorem hidden_eq (x0 : (⟨S8x4096x512, .f32⟩ : BufTy).Contents (Elt Ideal)) (x1 : (⟨S8, .f32⟩ : BufTy).Contents (Elt Ideal))
    (x2 : (⟨S2048x8, .f32⟩ : BufTy).Contents (Elt Ideal)) (x3 : (⟨S2048, .f32⟩ : BufTy).Contents (Elt Ideal))
    (b : Fin 8) (s : Fin 4096) (f : Fin 2048) :
    val_main_v10 (F := Ideal) x0 x1 x2 x3 (ix3 b s f) = hiddenF x0 x1 x2 x3 b s f := by
  rw [val_main_v10_apply, val_main_v9_apply, val_main_v6_apply, val_main_v8_apply, val_main_v7_apply,
    val_main_call0_v0_apply, val_main_call0_cst_apply]
  unfold hiddenF
  simp only [Ideal.maximumf_def, Ideal.addf_def, Ideal.ofBits_def]
  have e3 : idx_main_v7 (idx_main_v8 (ix3 b s f)) = ix1 f :=
    funext fun a => Fin.ext (by match a with | ⟨0, _⟩ => rfl)
  rw [e3]
  congr 2
  refine Finset.sum_congr rfl fun q _ => ?_
  rw [val_main_v5_apply, val_main_v1_apply, val_main_v0_apply, val_main_v4_apply, val_main_v3_apply, val_main_v2_apply]
  simp only [Ideal.mulf_def, Ideal.hostUnary_cos_def]
  have e0 : idx_main_v0 (lidx_main_v6 (ix3 b s f) q) = ix3 b s (chan q) :=
    funext fun a => Fin.ext (by match a with | ⟨0, _⟩ => rfl | ⟨1, _⟩ => rfl | ⟨2, _⟩ => rfl)
  have e1 : idx_main_v3 (idx_main_v4 (lidx_main_v6 (ix3 b s f) q)) = ix1 q :=
    funext fun a => Fin.ext (by match a with | ⟨0, _⟩ => rfl)
  have e2 : ridx_main_v6 (ix3 b s f) q = ix2 f q :=
    funext fun a => Fin.ext (by match a with | ⟨0, _⟩ => rfl | ⟨1, _⟩ => rfl)
  rw [e0, e1, e2]

/-- The reference's result is `Cert.Ffn.out` of its six arguments. -/
theorem result_eq (x0 : (⟨S8x4096x512, .f32⟩ : BufTy).Contents (Elt Ideal)) (x1 : (⟨S8, .f32⟩ : BufTy).Contents (Elt Ideal))
    (x2 : (⟨S2048x8, .f32⟩ : BufTy).Contents (Elt Ideal)) (x3 : (⟨S2048, .f32⟩ : BufTy).Contents (Elt Ideal))
    (x4 : (⟨S512x2048, .f32⟩ : BufTy).Contents (Elt Ideal)) (x5 : (⟨S512, .f32⟩ : BufTy).Contents (Elt Ideal)) :
    val_main_v14 (F := Ideal) x0 x1 x2 x3 x4 x5 = Cert.Ffn.out x0 x1 x2 x3 x4 x5 := by
  funext i
  obtain ⟨b, s, e, rfl⟩ : ∃ (b : Fin 8) (s : Fin 4096) (e : Fin 512), i = ix3 b s e := ⟨i 0, i 1, i 2, eq_ix3 i⟩
  rw [val_main_v14_apply, val_main_v11_apply, val_main_v13_apply, val_main_v12_apply]
  unfold Cert.Ffn.out
  simp only [Ideal.addf_def]
  have e5 : idx_main_v12 (idx_main_v13 (ix3 b s e)) = ix1 e :=
    funext fun a => Fin.ext (by match a with | ⟨0, _⟩ => rfl)
  rw [e5]
  congr 1
  refine Finset.sum_congr rfl fun f _ => ?_
  have el : lidx_main_v11 (ix3 b s e) f = ix3 b s f :=
    funext fun a => Fin.ext (by match a with | ⟨0, _⟩ => rfl | ⟨1, _⟩ => rfl | ⟨2, _⟩ => rfl)
  have er : ridx_main_v11 (ix3 b s e) f = ix2 e f :=
    funext fun a => Fin.ext (by match a with | ⟨0, _⟩ => rfl | ⟨1, _⟩ => rfl)
  rw [el, er, hidden_eq]

end Cert.ReferenceIdeal.RefValue

end
-- ==== Proof.Body.lean ====
/-
  What one grid step computes, read at an index of its 2048 x 512 result block.

  The step loads 2048 tokens (rows) of eight channels, a 2048 x 8 weight, a 2048-vector, a 2048 x 512 weight and a
  512-vector, and stores, at row p and column e,
      Σ_f max (Σ_q cos (rows p q) * w1 f q + b1 f) 0 * w2 f e + b2 e.
  Both contractions are matrix products into a zero accumulator, hence plain sums over the extended reals; the change
  of float format between them is the identity there.
-/
import proofs.«120687_j65481071395240_2_alg».proof.Proof.Gen.KernelIdeal.Skeleton
import proofs.«120687_j65481071395240_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! The operand indices of the two products, one coordinate at a time. -/

theorem l1_0 (j : S2048x2048.Idx) (k : dot_S2048x8_S2048x8_S2048x2048_1_1_0_0_n_n.contr.Idx) :
    (dot_S2048x8_S2048x8_S2048x2048_1_1_0_0_n_n.lhsIdx j k 0).val = (j 0).val := by
  unfold DotDims.lhsIdx
  rw [dif_neg (show ¬(0 : Fin S2048x8.rank) ∈ dot_S2048x8_S2048x8_S2048x2048_1_1_0_0_n_n.lhsBatch by decide), dif_pos (show (0 : Fin S2048x8.rank) ∈ dot_S2048x8_S2048x8_S2048x2048_1_1_0_0_n_n.lhsNonContracting by decide)]
  rfl
theorem l1_1 (j : S2048x2048.Idx) (k : dot_S2048x8_S2048x8_S2048x2048_1_1_0_0_n_n.contr.Idx) :
    (dot_S2048x8_S2048x8_S2048x2048_1_1_0_0_n_n.lhsIdx j k 1).val = (k ⟨0, by decide⟩).val :=
  dot_S2048x8_S2048x8_S2048x2048_1_1_0_0_n_n.lhsIdx_val_of_single rfl j k
theorem r1_0 (j : S2048x2048.Idx) (k : dot_S2048x8_S2048x8_S2048x2048_1_1_0_0_n_n.contr.Idx) :
    (dot_S2048x8_S2048x8_S2048x2048_1_1_0_0_n_n.rhsIdx j k 0).val = (j 1).val := by
  unfold DotDims.rhsIdx
  rw [dif_neg (show ¬(0 : Fin S2048x8.rank) ∈ dot_S2048x8_S2048x8_S2048x2048_1_1_0_0_n_n.rhsBatch by decide), dif_pos (show (0 : Fin S2048x8.rank) ∈ dot_S2048x8_S2048x8_S2048x2048_1_1_0_0_n_n.rhsNonContracting by decide)]
  rfl
theorem r1_1 (j : S2048x2048.Idx) (k : dot_S2048x8_S2048x8_S2048x2048_1_1_0_0_n_n.contr.Idx) :
    (dot_S2048x8_S2048x8_S2048x2048_1_1_0_0_n_n.rhsIdx j k 1).val = (k ⟨0, by decide⟩).val :=
  dot_S2048x8_S2048x8_S2048x2048_1_1_0_0_n_n.rhsIdx_val_of_single rfl j k

theorem l2_0 (j : S2048x512.Idx) (k : dot_S2048x2048_S2048x512_S2048x512_1_0_0_1_n_n.contr.Idx) :
    (dot_S2048x2048_S2048x512_S2048x512_1_0_0_1_n_n.lhsIdx j k 0).val = (j 0).val := by
  unfold DotDims.lhsIdx
  rw [dif_neg (show ¬(0 : Fin S2048x2048.rank) ∈ dot_S2048x2048_S2048x512_S2048x512_1_0_0_1_n_n.lhsBatch by decide), dif_pos (show (0 : Fin S2048x2048.rank) ∈ dot_S2048x2048_S2048x512_S2048x512_1_0_0_1_n_n.lhsNonContracting by decide)]
  rfl
theorem l2_1 (j : S2048x512.Idx) (k : dot_S2048x2048_S2048x512_S2048x512_1_0_0_1_n_n.contr.Idx) :
    (dot_S2048x2048_S2048x512_S2048x512_1_0_0_1_n_n.lhsIdx j k 1).val = (k ⟨0, by decide⟩).val :=
  dot_S2048x2048_S2048x512_S2048x512_1_0_0_1_n_n.lhsIdx_val_of_single rfl j k
theorem r2_0 (j : S2048x512.Idx) (k : dot_S2048x2048_S2048x512_S2048x512_1_0_0_1_n_n.contr.Idx) :
    (dot_S2048x2048_S2048x512_S2048x512_1_0_0_1_n_n.rhsIdx j k 0).val = (k ⟨0, by decide⟩).val :=
  dot_S2048x2048_S2048x512_S2048x512_1_0_0_1_n_n.rhsIdx_val_of_single rfl j k
theorem r2_1 (j : S2048x512.Idx) (k : dot_S2048x2048_S2048x512_S2048x512_1_0_0_1_n_n.contr.Idx) :
    (dot_S2048x2048_S2048x512_S2048x512_1_0_0_1_n_n.rhsIdx j k 1).val = (j 1).val := by
  unfold DotDims.rhsIdx
  rw [dif_neg (show ¬(1 : Fin S2048x512.rank) ∈ dot_S2048x2048_S2048x512_S2048x512_1_0_0_1_n_n.rhsBatch by decide), dif_pos (show (1 : Fin S2048x512.rank) ∈ dot_S2048x2048_S2048x512_S2048x512_1_0_0_1_n_n.rhsNonContracting by decide)]
  rfl

/-- The first product contracts the second axis of both operands: at (p, f) it is Σ_q a p q * b f q. -/
theorem dot1_apply (a b : FVec Ideal S2048x8 .f32) (p f : Fin 2048) :
    matmul dot_S2048x8_S2048x8_S2048x2048_1_1_0_0_n_n none a b (constant S2048x2048 .f32 0x00000000#32) (ix2 p f)
      = ∑ q : Fin 8, a (ix2 p q) * b (ix2 f q) := by
  simp only [matmul]
  rw [Ideal.matmul_constant_zero_apply, ← Equiv.sum_comp (contrEquiv1 dot_S2048x8_S2048x8_S2048x2048_1_1_0_0_n_n 8 rfl rfl).symm]
  refine Finset.sum_congr rfl fun k _ => ?_
  have hk := contrEquiv1_symm_val dot_S2048x8_S2048x8_S2048x2048_1_1_0_0_n_n 8 rfl rfl k
  have el : dot_S2048x8_S2048x8_S2048x2048_1_1_0_0_n_n.lhsIdx (ix2 p f) ((contrEquiv1 dot_S2048x8_S2048x8_S2048x2048_1_1_0_0_n_n 8 rfl rfl).symm k) = ix2 p k :=
    funext fun ax => Fin.ext (by
      match ax with
      | ⟨0, _⟩ => exact l1_0 _ _
      | ⟨1, _⟩ => exact (l1_1 _ _).trans hk)
  have er : dot_S2048x8_S2048x8_S2048x2048_1_1_0_0_n_n.rhsIdx (ix2 p f) ((contrEquiv1 dot_S2048x8_S2048x8_S2048x2048_1_1_0_0_n_n 8 rfl rfl).symm k) = ix2 f k :=
    funext fun ax => Fin.ext (by
      match ax with
      | ⟨0, _⟩ => exact r1_0 _ _
      | ⟨1, _⟩ => exact (r1_1 _ _).trans hk)
  rw [el, er]

/-- The second product contracts the left operand's second axis with the right operand's first: at (p, e) it is
    Σ_f a p f * b f e. -/
theorem dot2_apply (a : FVec Ideal S2048x2048 .bf16) (b : FVec Ideal S2048x512 .bf16) (p : Fin 2048) (e : Fin 512) :
    matmul dot_S2048x2048_S2048x512_S2048x512_1_0_0_1_n_n none a b (constant S2048x512 .f32 0x00000000#32) (ix2 p e)
      = ∑ f : Fin 2048, a (ix2 p f) * b (ix2 f e) := by
  simp only [matmul]
  rw [Ideal.matmul_constant_zero_apply, ← Equiv.sum_comp (contrEquiv1 dot_S2048x2048_S2048x512_S2048x512_1_0_0_1_n_n 2048 rfl rfl).symm]
  refine Finset.sum_congr rfl fun k _ => ?_
  have hk := contrEquiv1_symm_val dot_S2048x2048_S2048x512_S2048x512_1_0_0_1_n_n 2048 rfl rfl k
  have el : dot_S2048x2048_S2048x512_S2048x512_1_0_0_1_n_n.lhsIdx (ix2 p e) ((contrEquiv1 dot_S2048x2048_S2048x512_S2048x512_1_0_0_1_n_n 2048 rfl rfl).symm k) = ix2 p k :=
    funext fun ax => Fin.ext (by
      match ax with
      | ⟨0, _⟩ => exact l2_0 _ _
      | ⟨1, _⟩ => exact (l2_1 _ _).trans hk)
  have er : dot_S2048x2048_S2048x512_S2048x512_1_0_0_1_n_n.rhsIdx (ix2 p e) ((contrEquiv1 dot_S2048x2048_S2048x512_S2048x512_1_0_0_1_n_n 2048 rfl rfl).symm k) = ix2 k e :=
    funext fun ax => Fin.ext (by
      match ax with
      | ⟨0, _⟩ => exact (r2_0 _ _).trans hk
      | ⟨1, _⟩ => exact r2_1 _ _)
  rw [el, er]

/-- The stored value at row p, column e, as sums over the loaded blocks. -/
theorem stored_apply (v0 v3 : Vec Ideal S2048x8 .f32) (v6 : Vec Ideal S2048 .f32) (v13 : Vec Ideal S2048x512 .bf16)
    (v16 : Vec Ideal S512 .f32) (p : Fin 2048) (e : Fin 512) :
    k0_pay1 (F := Ideal) v0 v3 v6 v13 v16 (ix2 p e)
      = (∑ f : Fin 2048, max ((∑ q : Fin 8, Ideal.cos (v0 (ix2 p q)) * v3 (ix2 f q)) + v6 (ix1 f)) Cert.Ffn.zero * v13 (ix2 f e))
        + v16 (ix1 e) := by
  unfold k0_pay1
  simp only [shapeCast_self]
  rw [addf_apply, dot2_apply, broadcastTo_1b_ab_apply, shapeCast_a_1a_apply]
  congr 1
  refine Finset.sum_congr rfl fun f _ => ?_
  rw [truncf_apply, maximumf_apply, addf_apply, dot1_apply, broadcastTo_1b_ab_apply, shapeCast_a_1a_apply, broadcast_apply]
  rfl

end Cert.KernelIdeal.Body

end
-- ==== Proof.Region.lean ====
/-
  The array the grid leaves behind.  The 32768 flattened tokens are cut into sixteen blocks of 2048 rows; grid step t
  reads rows 2048 t .. 2048 t + 2047 (their first 128 channels, of which the body uses eight), the whole of the
  prepared weights and biases, and writes rows 2048 t .. 2048 t + 2047 of the result.  So every step writes a block
  of ONE function of the prepared arrays (`Cert.Ffn.rows`), and the sixteen blocks cover the result.
-/
import proofs.«120687_j65481071395240_2_alg».proof.Proof.Gen.KernelIdeal.Frame
import proofs.«120687_j65481071395240_2_alg».proof.Proof.Body
import Idealize.ShloMosaic.Lib.Pipeline.Value
import Idealize.ShloMosaic.Lib.Tactic

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)
open Cert.Ffn

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The block indices, decided over the sixteen grid steps: the token windows sit at block t of the rows and block 0
    of the columns, the weights and biases at block 0. -/
theorem idx_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) ≤ 15 ∧ win0_5.index t (1 : Fin 2) = 0 :=
  (by decide +kernel : ∀ t : Fin grid0.N, _)

/-- Every block of rows is some step's. -/
theorem idx_onto : ∀ q0 : Fin 16, ∃ t : Fin cfg0.N, win0_5.index t = ![q0.val, 0] :=
  (by decide +kernel : ∀ q0 : Fin 16, ∃ t : Fin grid0.N, win0_5.index t = ![q0.val, 0])

/-- Channel q < 8 as a channel of the 128-wide token block. -/
abbrev chan128 (q : Fin 8) : Fin 128 := ⟨q.val, by have := q.isLt; omega⟩

/-- The body's stored value at an index j of its block is `rows` at an index i of the result, when row (j 0) of the
    token block is row (i 0) of X on the eight channels used, the other four blocks are the whole arrays, and the
    columns agree. -/
theorem stored_rows (x0 : Vec Ideal S2048x128 .f32) (x1 : Vec Ideal S2048x8 .f32) (x2 : Vec Ideal S2048 .f32)
    (x3 : Vec Ideal S2048x512 .bf16) (x4 : Vec Ideal S512 .f32) (X : S32768x512.Idx → EReal)
    (j : S2048x512.Idx) (i : S32768x512.Idx)
    (h0 : ∀ q : Fin 8, x0 (ix2 (j 0) (chan128 q)) = X (ix2 (i 0) (chan q))) (hi : i 1 = j 1) :
    k0_pay1 (F := Ideal) (View.ld x0 r0_0) x1 x2 x3 x4 j = rows X x1 x2 x3 x4 i := by
  obtain ⟨p, e, rfl⟩ : ∃ (p : Fin 2048) (e : Fin 512), j = ix2 p e := ⟨j 0, j 1, eq_ix2 j⟩
  rw [Body.stored_apply]
  unfold rows
  rw [hi]
  congr 1
  refine Finset.sum_congr rfl fun f _ => ?_
  congr 3
  refine Finset.sum_congr rfl fun q _ => ?_
  have hq : (r0_0.idx (ix2 p q) : S2048x128.Idx) = ix2 p (chan128 q) :=
    funext fun a => Fin.ext (by
      match a with
      | ⟨0, _⟩ => show 0 + 1 * p.val = p.val; omega
      | ⟨1, _⟩ => show 0 + 1 * q.val = q.val; omega)
  show Ideal.cos (x0 (r0_0.idx (ix2 p q))) * _ = _
  rw [hq, h0 q]

/-- WHAT STEP t WRITES BACK is block t of `rows` of the arrays as the grid finds them. -/
theorem flushed_eq (c : Dev nD) (t : Fin cfg0.N) :
    (dats m 0 c).flushed 5 t = ((cfg0.win 5).blk t).view.read (Elt Ideal)
      (rows (V m c main_v6) (V m c main_v3) (V m c main_arg3) (V m c main_v5) (V m c main_arg5)) := by
  show (cfg0.win 5).cut (grid0.coords t) ((dats m 0 c).after 5 t) = _
  rw [after0_5]
  unfold out0_5
  rw [View.canon_unit_zero hz2]
  simp only [View.ld_unit_zero (S := S2048x8) hz2, View.ld_unit_zero (S := S2048) hz1, View.ld_unit_zero (S := S2048x512) hz2, View.ld_unit_zero (S := S512) hz1]
  obtain ⟨e0, e1, e2, e3, e4, e5, e6, e7, e8, e9⟩ := idx_facts t
  funext j
  show k0_pay1 (View.ld (iblk m c 0 t) r0_0) (iblk m c 1 t) (iblk m c 2 t) (iblk m c 3 t) (iblk m c 4 t) j
    = rows (V m c main_v6) (V m c main_v3) (V m c main_arg3) (V m c main_v5) (V m c main_arg5) (((cfg0.win 5).blk t).view.emb j)
  have b1 : (iblk m c 1 t : Vec Ideal S2048x8 .f32) = V m c main_v3 := by
    funext y
    show V m c main_v3 (((cfg0.win 1).blk t).view.emb y) = V m c main_v3 y
    refine congrArg _ (funext fun a => Fin.ext ?_)
    match a with
    | ⟨0, _⟩ => show win0_1.index t (0 : Fin 2) * 2048 + 1 * (y 0).val = (y 0).val; omega
    | ⟨1, _⟩ => show win0_1.index t (1 : Fin 2) * 8 + 1 * (y 1).val = (y 1).val; omega
  have b2 : (iblk m c 2 t : Vec Ideal S2048 .f32) = V m c main_arg3 := by
    funext y
    show V m c main_arg3 (((cfg0.win 2).blk t).view.emb y) = V m c main_arg3 y
    refine congrArg _ (funext fun a => Fin.ext ?_)
    match a with
    | ⟨0, _⟩ => show win0_2.index t (0 : Fin 1) * 2048 + 1 * (y 0).val = (y 0).val; omega
  have b3 : (iblk m c 3 t : Vec Ideal S2048x512 .bf16) = V m c main_v5 := by
    funext y
    show V m c main_v5 (((cfg0.win 3).blk t).view.emb y) = V m c main_v5 y
    refine congrArg _ (funext fun a => Fin.ext ?_)
    match a with
    | ⟨0, _⟩ => show win0_3.index t (0 : Fin 2) * 2048 + 1 * (y 0).val = (y 0).val; omega
    | ⟨1, _⟩ => show win0_3.index t (1 : Fin 2) * 512 + 1 * (y 1).val = (y 1).val; omega
  have b4 : (iblk m c 4 t : Vec Ideal S512 .f32) = V m c main_arg5 := by
    funext y
    show V m c main_arg5 (((cfg0.win 4).blk t).view.emb y) = V m c main_arg5 y
    refine congrArg _ (funext fun a => Fin.ext ?_)
    match a with
    | ⟨0, _⟩ => show win0_4.index t (0 : Fin 1) * 512 + 1 * (y 0).val = (y 0).val; omega
  refine (stored_rows (iblk m c 0 t) (iblk m c 1 t) (iblk m c 2 t) (iblk m c 3 t) (iblk m c 4 t) (V m c main_v6) j
    (((cfg0.win 5).blk t).view.emb j) (fun q => ?_) (Fin.ext ?_)).trans ?_
  · show V m c main_v6 (((cfg0.win 0).blk t).view.emb (ix2 (j 0) (chan128 q)))
      = V m c main_v6 (ix2 ((((cfg0.win 5).blk t).view.emb j) 0) (chan q))
    refine congrArg _ (funext fun a => Fin.ext ?_)
    match a with
    | ⟨0, _⟩ => show win0_0.index t (0 : Fin 2) * 2048 + 1 * (j 0).val = win0_5.index t (0 : Fin 2) * 2048 + 1 * (j 0).val; omega
    | ⟨1, _⟩ => show win0_0.index t (1 : Fin 2) * 128 + 1 * q.val = q.val; omega
  · show win0_5.index t (1 : Fin 2) * 512 + 1 * (j 1).val = (j 1).val; omega
  · rw [b1, b2, b3, b4]

/-- An index of the result is in step t's block iff each coordinate is in the block's range on its axis. -/
theorem mem_blk (t : Fin cfg0.N) (i : S32768x512.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v7).slice (win0_5.rect t)).set ↔ _
  rw [View.set_slice_whole, Rect.mem_set_unit]
  exact Iff.rfl

/-- Row r of the result is written by step r / 2048. -/
theorem cover (i : S32768x512.Idx) :
    ∃ t : Fin cfg0.N, (cfg0.win 5).flush t = true ∧ i ∈ ((cfg0.win 5).blk t).view.set := by
  have hi0 : (i 0).val < 32768 := (i 0).isLt
  have hi1 : (i 1).val < 512 := (i 1).isLt
  obtain ⟨t, ht⟩ := idx_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 512 ≤ (i 1).val ∧ (i 1).val < win0_5.index t (1 : Fin 2) * 512 + 512; omega

/-- THE RESULT ARRAY after the grid: `rows` of the arrays as the grid finds them. -/
theorem final (c : Dev nD) : (dats m 0 c).arrAt 5 cfg0.N
    = rows (V m c main_v6) (V m c main_v3) (V m c main_arg3) (V m c main_v5) (V m c main_arg5) :=
  (dats m 0 c).arrAt_eq_of_cover 5 _ (fun t _ => flushed_eq m c t) cover

/-! ## The arrays the grid finds, from the arguments -/

/-- The six arguments on core c, at their shapes. -/
abbrev argX (c : Dev nD) : FVec Ideal S8x4096x512 .f32 := m ((c : Thread nD τ).loc main_arg0)
abbrev argTheta (c : Dev nD) : FVec Ideal S8 .f32 := m ((c : Thread nD τ).loc main_arg1)
abbrev argW1 (c : Dev nD) : FVec Ideal S2048x8 .f32 := m ((c : Thread nD τ).loc main_arg2)
abbrev argB1 (c : Dev nD) : FVec Ideal S2048 .f32 := m ((c : Thread nD τ).loc main_arg3)
abbrev argW2 (c : Dev nD) : FVec Ideal S512x2048 .f32 := m ((c : Thread nD τ).loc main_arg4)
abbrev argB2 (c : Dev nD) : FVec Ideal S512 .f32 := m ((c : Thread nD τ).loc main_arg5)

theorem V_tokens (c : Dev nD) : (V m c main_v6 : FVec Ideal S32768x512 .f32)
    = shapeCast S32768x512 (argX m c) shapeCasts_S8x4096x512_S32768x512 := by
  show StableHlo.after hostOps0 (fun b => m (c, b)) (Proc.devRef .tc main_v6) = _
  after_results
  rfl

theorem V_weight1 (c : Dev nD) : (V m c main_v3 : FVec Ideal S2048x8 .f32)
    = mulf (argW1 m c) (broadcastInDim S2048x8 ![0, 1] bcast_S1x8_S2048x8_0_1
        (broadcastInDim S1x8 ![1] bcast_S8_S1x8_1 (Host.cos (argTheta m c)))) := by
  show StableHlo.after hostOps0 (fun b => m (c, b)) (Proc.devRef .tc main_v3) = _
  after_results

theorem V_weight2 (c : Dev nD) : (V m c main_v5 : FVec Ideal S2048x512 .bf16)
    = truncf .bf16 (transpose S2048x512 [1, 0] (argW2 m c) transposes_S512x2048_S2048x512_1_0) bitsLt_bf16_f32 := by
  show StableHlo.after hostOps0 (fun b => m (c, b)) (Proc.devRef .tc main_v5) = _
  after_results

/-- The tokens as the grid finds them are x with (b, s) flattened to row 4096 b + s. -/
theorem tokens_apply (c : Dev nD) (b : Fin 8) (s : Fin 4096) (ch : Fin 512) :
    (V m c main_v6 : FVec Ideal S32768x512 .f32) (ix2 (tok b s) ch) = argX m c (ix3 b s ch) := by
  rw [V_tokens]
  refine shapeCast_apply (s := S8x4096x512) (t := S32768x512) _ _ _ _ ?_
  rw [Shape.rowMajor_val_three, Shape.rowMajor_val_two]
  rfl

/-- The first weight as the grid finds it has cos θ multiplied into column q. -/
theorem weight1_apply (c : Dev nD) (f : Fin 2048) (q : Fin 8) :
    (V m c main_v3 : FVec Ideal S2048x8 .f32) (ix2 f q) = argW1 m c (ix2 f q) * Ideal.cos (argTheta m c (ix1 q)) := by
  rw [V_weight1, mulf_apply,
    broadcastInDim_apply _ bcast_S1x8_S2048x8_0_1 _ (ix2 f q) (ix2 (0 : Fin 1) q) (fun a => by
      match a with
      | ⟨0, _⟩ => rfl
      | ⟨1, _⟩ => show q.val = if (8 : Nat) = 1 then 0 else q.val; rw [if_neg (by decide)]),
    broadcastInDim_apply _ bcast_S8_S1x8_1 _ (ix2 (0 : Fin 1) q) (ix1 q) (fun a => by
      match a with
      | ⟨0, _⟩ => show q.val = if (8 : Nat) = 1 then 0 else q.val; rw [if_neg (by decide)])]
  rfl

/-- The second weight as the grid finds it is W2 transposed. -/
theorem weight2_apply (c : Dev nD) (f : Fin 2048) (e : Fin 512) :
    (V m c main_v5 : FVec Ideal S2048x512 .bf16) (ix2 f e) = argW2 m c (ix2 e f) := by
  rw [V_weight2, truncf_apply, transpose_ix2_apply]

end Cert.KernelIdeal.Region

end
-- ==== Proof.Run.lean ====
/-
  The whole run of the idealized kernel program, read: after the grid the result array holds `Cert.Ffn.rows` of the
  prepared arrays; the last host operation un-flattens the tokens, so the program's result at (b, s, e) is row
  4096 b + s, column e of that array, which is `Cert.Ffn.out` of the six arguments.
-/
import proofs.«120687_j65481071395240_2_alg».proof.Proof.Region
import Idealize.ShloMosaic.Lib.StableHlo.Run

noncomputable section

namespace Cert.KernelIdeal.Whole

open Cert.KernelIdeal Cert.KernelIdeal.Gen Cert.KernelIdeal.Region Idealize.ShloMosaic Idealize.ShloMosaic.TcCoe Idealize.SL.Sem
open Idealize.ShloMosaic.ValueIdx
open Cert.Ffn

variable (m : (ℓ : Loc nD τ sig) → Buf (Elt Ideal) ℓ) (ρ : Dev nD → PrngReg)

/-- The function of the arguments the program's result holds on core c. -/
abbrev result (c : Dev nD) : FVec Ideal S8x4096x512 .f32 :=
  Cert.Ffn.out (argX m c) (argTheta m c) (argW1 m c) (argB1 m c) (argW2 m c) (argB2 m c)

/-- What the host operation after the grid leaves in the result buffer. -/
theorem tail_eq (c : Dev nD) :
    (Pipeline.afterTail₀ cfgs (dats m) 0 (V0 m) [hostOps1] c main_v8 : FVec Ideal S8x4096x512 .f32) = result m c := by
  unfold Pipeline.afterTail₀
  show StableHlo.after hostOps1 _ (Proc.devRef .tc main_v8) = _
  after_results
  funext i
  obtain ⟨b, s, e, rfl⟩ : ∃ (b : Fin 8) (s : Fin 4096) (e : Fin 512), i = ix3 b s e := ⟨i 0, i 1, i 2, eq_ix3 i⟩
  have hA : Pipeline.withArrays (cfgs 0).spec c (V0 m c) (fun w => (dats m 0 c).arrAt w (cfgs 0).N) (Proc.devRef .tc main_v7)
      = rows (V m c main_v6) (V m c main_v3) (V m c main_arg3) (V m c main_v5) (V m c main_arg5) :=
    (Pipeline.withArrays_arr spec0 launch0.win.arr_inj c _ _ 5).trans (final m c)
  show shapeCast S8x4096x512 (Pipeline.withArrays (cfgs 0).spec c (V0 m c) (fun w => (dats m 0 c).arrAt w (cfgs 0).N) (Proc.devRef .tc main_v7))
      shapeCasts_S32768x512_S8x4096x512 (ix3 b s e) = _
  rw [hA]
  refine (shapeCast_apply (s := S32768x512) (t := S8x4096x512) _ _ (ix3 b s e) (ix2 (tok b s) e) ?_).trans ?_
  · rw [Shape.rowMajor_val_three, Shape.rowMajor_val_two]
    rfl
  · rw [V_main_arg3, V_main_arg5]
    exact rows_eq_out (argX m c) (argTheta m c) (argW1 m c) (argB1 m c) (argW2 m c) (argB2 m c) _ _ _
      (tokens_apply m c) (weight1_apply m c) (weight2_apply m c) b s e

/-- THE RUN of the idealized kernel program: every weakly fair execution terminates with the result buffer at
    `result` and the six arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans ((((dats m) 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans ((((dats m) 0 c).arrAt_in 4 rfl _).trans ((A_eq m c 4).trans (V_main_arg5 m c)))⟩)
    (run_main m ρ)

end Cert.KernelIdeal.Whole

end
-- ==== Proof.lean ====
/-
  A two-layer feed-forward block on eight "rotation" features per token.  For token (b, s) of x : [8, 4096, 512],
      feature q  = cos (x b s q) * cos (θ q)                       (q < 8)
      hidden f   = max (Σ_q feature q * W1 f q + b1 f) 0           (f < 2048)
      out e      = Σ_f hidden f * W2 e f + b2 e                    (e < 512).
  The reference computes exactly this with two contractions over the three-axis arrays.  The kernel program first
  multiplies cos θ into the columns of W1, transposes W2 and flattens the tokens to 32768 rows; a grid of sixteen
  steps then computes 2048 rows each, and the rows are un-flattened.  Over the extended reals the two agree index by
  index: a change of float format is the identity, both contractions are plain sums, and moving cos θ from the
  feature to the weight is commutativity and associativity of the product (no finiteness of the inputs is needed).

  The three frames are the generated ones (the reference's is its run with the result dropped); the idealization
  rewrote nothing, so `preserves` is trivial; `algebraic` joins the kernel program's run (Proof/Run.lean) and the
  reference's run read at an index (Proof/RefValue.lean) at the one function `Cert.Ffn.out` (Proof/Spec.lean).
-/
import proofs.«120687_j65481071395240_2_alg».proof.Defs
import proofs.«120687_j65481071395240_2_alg».proof.Proof.Gen.Kernel
import proofs.«120687_j65481071395240_2_alg».proof.Proof.Gen.Kernel.Skeleton
import proofs.«120687_j65481071395240_2_alg».proof.Proof.Gen.Kernel.Launch
import proofs.«120687_j65481071395240_2_alg».proof.Proof.Gen.Kernel.Points
import proofs.«120687_j65481071395240_2_alg».proof.Proof.Gen.Kernel.Frame
import proofs.«120687_j65481071395240_2_alg».proof.Proof.Gen.KernelIdeal
import proofs.«120687_j65481071395240_2_alg».proof.Proof.Gen.KernelIdeal.Skeleton
import proofs.«120687_j65481071395240_2_alg».proof.Proof.Gen.KernelIdeal.Launch
import proofs.«120687_j65481071395240_2_alg».proof.Proof.Gen.KernelIdeal.Points
import proofs.«120687_j65481071395240_2_alg».proof.Proof.Gen.KernelIdeal.Frame
import proofs.«120687_j65481071395240_2_alg».proof.Proof.Gen.ReferenceIdeal
import proofs.«120687_j65481071395240_2_alg».proof.Proof.Gen.ReferenceIdeal.Run
import proofs.«120687_j65481071395240_2_alg».proof.Proof.Gen.ReferenceIdeal.Read
import proofs.«120687_j65481071395240_2_alg».proof.Proof.Gen.Pre_finite_inputs
import proofs.«120687_j65481071395240_2_alg».proof.Proof.RefValue
import proofs.«120687_j65481071395240_2_alg».proof.Proof.Run
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the six arguments, end with `Cert.Ffn.out` of those arguments in
    their result buffers. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
